-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8 : Shape := ⟨1, ![8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  main_v18

def fn {F : FTy → Type} [FloatOps F] (main_arg0 : FVec F S32768x1024 .f32) (main_arg1 : FVec F S8x1024x4096 .f32) (main_arg2 : FVec F S8x4096x1024 .f32) (main_arg3 : FVec F S8x1024x4096 .f32) (main_arg4 : IVec S8 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x1024x4096 .f32 := Host.absf main_arg3
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_v13 main_v16
-- ==== Kernel.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8 : Shape := ⟨1, ![8]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x1024x4096, .f32⟩
  | .hbm, ⟨4, _⟩ => ⟨S8, .i32⟩
  | .hbm, ⟨5, _⟩ => ⟨S8x4096x1024, .f32⟩
  | .hbm, ⟨6, _⟩ => ⟨S8x4096x1024, .f32⟩
  | .hbm, ⟨7, _⟩ => ⟨S32768x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1024x1024, .f32⟩
  | .local _ .vmem, ⟨9, _⟩ => ⟨S1x1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S32768x1024_S8x4096x1024 : S32768x1024.ShapeCasts S8x4096x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S8x4096x1024_S32768x1024 : S8x4096x1024.ShapeCasts S32768x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x4096.size a
  hwx0_2 : ∀ i : grid0.Coords, EltTy.bits .f32 = 32 ∨ (Rect.block (s := S8x1024x4096) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .f32 = 32 ∨ (Rect.block (s := S8x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x4096x1024.size a
  hwx0_4 : ∀ i : grid0.Coords, EltTy.bits .f32 = 32 ∨ (Rect.block (s := S8x4096x1024) S1x1024x1024.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8 : Shape := ⟨1, ![8]⟩
abbrev S8x4096x4096 : Shape := ⟨3, ![8, 4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x1024x4096, .f32⟩
  | .hbm, ⟨4, _⟩ => ⟨S8, .i32⟩
  | .hbm, ⟨5, _⟩ => ⟨S8x4096x1024, .f32⟩
  | .hbm, ⟨6, _⟩ => ⟨S8x4096x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.LibSumBlocks.lean ====
/-
  Sums over a range cut into consecutive blocks, and a running sum that adds one term per step.

  In a commutative additive monoid (the extended reals under `+` are one) a sum over `a * b` consecutive
  indices is the sum over `a` blocks of the sums inside each block of length `b`, and a value built by
  starting from `z + f 0` and adding `f (n + 1)` at each later step is `z` plus the sum of the terms met so far.
  Nothing here needs more than associativity and commutativity of `+`, so it holds at infinite values too.
-/
import Mathlib.Algebra.BigOperators.Intervals
import Mathlib.Algebra.BigOperators.Fin

namespace Cert.SumBlocks

open Finset

variable {M : Type*} [AddCommMonoid M]

/-- GENERAL LEMMA. A sum over `a * b` consecutive indices, block by block. -/
theorem sum_range_mul (f : ℕ → M) (a b : ℕ) :
    ∑ n ∈ range (a * b), f n = ∑ q ∈ range a, ∑ l ∈ range b, f (q * b + l) := by
  induction a with
  | zero => simp
  | succ a ih =>
    rw [Nat.succ_mul, sum_range_add, ih, sum_range_succ]

/-- The running sum: `z + f 0` after step `0`, one more term at each later step. -/
def run (z : M) (f : ℕ → M) : ℕ → M
  | 0 => z + f 0
  | n + 1 => run z f n + f (n + 1)

/-- The running sum after step `n` is `z` plus the first `n + 1` terms. -/
theorem run_eq (z : M) (f : ℕ → M) (n : ℕ) : run z f n = z + ∑ q ∈ range (n + 1), f q := by
  induction n with
  | zero => simp [run]
  | succ n ih => rw [run, ih, sum_range_succ _ (n + 1), add_assoc]

/-- The running sum that starts from its first term alone (no initial value). -/
def run' (f : ℕ → M) : ℕ → M
  | 0 => f 0
  | n + 1 => run' f n + f (n + 1)

theorem run'_eq (f : ℕ → M) (n : ℕ) : run' f n = ∑ q ∈ range (n + 1), f q := by
  induction n with
  | zero => simp [run']
  | succ n ih => rw [run', ih, sum_range_succ _ (n + 1)]

/-- A sum over `Fin n` of a function of the value is the sum over the range. -/
theorem sum_fin_eq_range (f : ℕ → M) (n : ℕ) : ∑ i : Fin n, f i.val = ∑ i ∈ range n, f i :=
  Fin.sum_univ_eq_sum_range f n

end Cert.SumBlocks
-- ==== Proof.Spec.lean ====
/-
  The gated feed-forward layer of a mixture of experts with a uniform split, as one function of its arrays.

  Tokens are grouped expert by expert: `X` is [8, 4096, 1024] (expert, token, model coordinate), the gate and up
  weights `W1`, `W3` are [8, 1024, 4096], the down weights `W2` are [8, 4096, 1024]. For expert `e` and token `r` the
  hidden activation at `h` is `g * logistic g * u` with `g = ∑ k, X (e, r, k) * W1 (e, k, h)` and `u` the same sum
  against `W3`; the output at `d` is `∑ h, hidden (e, r, h) * W2 (e, h, d)`.

  The sum over the 4096 hidden coordinates may be taken in 8 consecutive blocks of 512: only associativity and
  commutativity of `+` on the extended reals are used, so nothing here asks the entries to be finite.
-/
import Idealize.ShloMosaic.PureOps.Ideal
import Idealize.ShloMosaic.Lib.ValueIdx
import proofs.«131598_j43654047597179_2_alg».proof.Proof.LibSumBlocks

noncomputable section

namespace Cert.Swiglu

open Idealize.ShloMosaic Idealize.ShloMosaic.ValueIdx

/-- [8, 4096, 1024]: the grouped tokens, the down weights, and the result. -/
abbrev SX : Shape := ⟨3, ![8, 4096, 1024]⟩
/-- [8, 1024, 4096]: the gate and the up weights. -/
abbrev SW : Shape := ⟨3, ![8, 1024, 4096]⟩

/-- Entry `(e, r, h)` of the batched product of the tokens with a weight array. -/
def proj (X : SX.Idx → EReal) (W : SW.Idx → EReal) (e : Fin 8) (r : Fin 4096) (h : Fin 4096) : EReal :=
  ∑ k : Fin 1024, X (ix3 e r k) * W (ix3 e k h)

/-- The gated activation: `g * logistic g * u`. -/
def swish (g u : EReal) : EReal := g * Ideal.logistic g * u

/-- The hidden activation at `(e, r, h)`. -/
def hiddenAt (X : SX.Idx → EReal) (W1 W3 : SW.Idx → EReal) (e : Fin 8) (r : Fin 4096) (h : Fin 4096) : EReal :=
  swish (proj X W1 e r h) (proj X W3 e r h)

/-- One term of the down projection, indexed by a natural number (zero past the hidden extent). -/
def downTerm (X : SX.Idx → EReal) (W1 W3 : SW.Idx → EReal) (W2 : SX.Idx → EReal) (e : Fin 8) (r : Fin 4096) (d : Fin 1024)
    (n : ℕ) : EReal :=
  if h : n < 4096 then hiddenAt X W1 W3 e r ⟨n, h⟩ * W2 (ix3 e ⟨n, h⟩ d) else 0

/-- The output at `(e, r, d)`. -/
def outAt (X : SX.Idx → EReal) (W1 W3 : SW.Idx → EReal) (W2 : SX.Idx → EReal) (e : Fin 8) (r : Fin 4096) (d : Fin 1024) : EReal :=
  ∑ h : Fin 4096, hiddenAt X W1 W3 e r h * W2 (ix3 e h d)

/-- The layer as one array. -/
def ffn (X : SX.Idx → EReal) (W1 W3 : SW.Idx → EReal) (W2 : SX.Idx → EReal) : SX.Idx → EReal :=
  fun i => outAt X W1 W3 W2 (i 0) (i 1) (i 2)

theorem ffn_apply (X : SX.Idx → EReal) (W1 W3 : SW.Idx → EReal) (W2 : SX.Idx → EReal) (e : Fin 8) (r : Fin 4096) (d : Fin 1024) :
    ffn X W1 W3 W2 (ix3 e r d) = outAt X W1 W3 W2 e r d := rfl

/-- The output as the sum over 8 blocks of 512 hidden coordinates. -/
theorem outAt_blocks (X : SX.Idx → EReal) (W1 W3 : SW.Idx → EReal) (W2 : SX.Idx → EReal) (e : Fin 8) (r : Fin 4096) (d : Fin 1024) :
    outAt X W1 W3 W2 e r d
      = ∑ s ∈ Finset.range 8, ∑ l ∈ Finset.range 512, downTerm X W1 W3 W2 e r d (s * 512 + l) := by
  have h1 : outAt X W1 W3 W2 e r d = ∑ h : Fin 4096, downTerm X W1 W3 W2 e r d h.val := by
    unfold outAt
    refine Finset.sum_congr rfl fun h _ => ?_
    unfold downTerm
    rw [dif_pos h.isLt]
  rw [h1, Cert.SumBlocks.sum_fin_eq_range, ← Cert.SumBlocks.sum_range_mul]

end Cert.Swiglu

end
-- ==== Proof.RefSide.lean ====
/-
  The reference computes the layer `Cert.Swiglu.ffn` of the grouped tokens.

  Its two batched products are `proj`; its sigmoid, spelt `1 / (1 + exp (-g))`, is the logistic function by
  definition; its last batched product is the sum over the 4096 hidden coordinates.
-/
import proofs.«131598_j43654047597179_2_alg».proof.Proof.Gen.ReferenceIdeal.Read
import proofs.«131598_j43654047597179_2_alg».proof.Proof.Spec
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Read Cert.Swiglu

/-- The f32 word of one is the real number one. -/
theorem one_word : Ideal.ofBits .f32 0x3F800000#32 = (1 : EReal) := by
  simp [Ideal.ofBits, Ideal.ieee, -EReal.coe_mul]
  norm_num

theorem lidx1 (e : Fin 8) (r : Fin 4096) (h : Fin 4096) (k : Fin 1024) :
    lidx_main_v1 (ix3 e r h) k = ix3 e r k :=
  funext fun a => Fin.ext (by match a with | ⟨0, _⟩ => rfl | ⟨1, _⟩ => rfl | ⟨2, _⟩ => rfl)

theorem ridx1 (e : Fin 8) (r : Fin 4096) (h : Fin 4096) (k : Fin 1024) :
    ridx_main_v1 (ix3 e r h) k = ix3 e k h :=
  funext fun a => Fin.ext (by match a with | ⟨0, _⟩ => rfl | ⟨1, _⟩ => rfl | ⟨2, _⟩ => rfl)

theorem lidx5 (e : Fin 8) (r : Fin 4096) (d : Fin 1024) (k : Fin 4096) :
    lidx_main_v5 (ix3 e r d) k = ix3 e r k :=
  funext fun a => Fin.ext (by match a with | ⟨0, _⟩ => rfl | ⟨1, _⟩ => rfl | ⟨2, _⟩ => rfl)

theorem ridx5 (e : Fin 8) (r : Fin 4096) (d : Fin 1024) (k : Fin 4096) :
    ridx_main_v5 (ix3 e r d) k = ix3 e k d :=
  funext fun a => Fin.ext (by match a with | ⟨0, _⟩ => rfl | ⟨1, _⟩ => rfl | ⟨2, _⟩ => rfl)

/-- The first batched product at `(e, r, h)`. -/
theorem gate_eq (x0 : S32768x1024.Idx → EReal) (x1 : S8x1024x4096.Idx → EReal) (e : Fin 8) (r : Fin 4096) (h : Fin 4096) :
    val_main_v1 (F := Ideal) x0 x1 (ix3 e r h) = proj (val_main_v0 (F := Ideal) x0) x1 e r h := by
  rw [val_main_v1_apply]
  unfold proj
  refine Finset.sum_congr rfl fun k _ => ?_
  rw [lidx1, ridx1]

/-- The second batched product at `(e, r, h)`. -/
theorem up_eq (x0 : S32768x1024.Idx → EReal) (x3 : S8x1024x4096.Idx → EReal) (e : Fin 8) (r : Fin 4096) (h : Fin 4096) :
    val_main_v2 (F := Ideal) x0 x3 (ix3 e r h) = proj (val_main_v0 (F := Ideal) x0) x3 e r h := by
  rw [val_main_v2_apply]
  unfold proj
  refine Finset.sum_congr rfl fun k _ => ?_
  exact congrArg₂ (· * ·) (congrArg _ (lidx1 e r h k)) (congrArg _ (ridx1 e r h k))

/-- The gated activation at `(e, r, h)`. -/
theorem hidden_eq (x0 : S32768x1024.Idx → EReal) (x1 x3 : S8x1024x4096.Idx → EReal) (e : Fin 8) (r : Fin 4096) (h : Fin 4096) :
    val_main_v4 (F := Ideal) x0 x1 x3 (ix3 e r h) = hiddenAt (val_main_v0 (F := Ideal) x0) x1 x3 e r h := by
  rw [val_main_v4_apply, val_main_v3_apply, val_main_call0_v5_apply, val_main_call0_v3_apply, val_main_call0_v1_apply,
    val_main_call0_v0_apply, val_main_call0_v4_apply, val_main_call0_v2_apply, val_main_call0_cst_apply,
    val_main_call0_cst_0_apply, gate_eq, up_eq]
  unfold hiddenAt swish
  show (_ * Ideal.div (Ideal.ofBits .f32 0x3F800000#32) (Ideal.ofBits .f32 0x3F800000#32 + Ideal.exp (-_))) * _ = _
  rw [one_word]
  rfl

/-- The reference's last batched product is the layer. -/
theorem v5_eq (x0 : S32768x1024.Idx → EReal) (x1 : S8x1024x4096.Idx → EReal) (x2 : S8x4096x1024.Idx → EReal)
    (x3 : S8x1024x4096.Idx → EReal) :
    val_main_v5 (F := Ideal) x0 x1 x2 x3 = ffn (val_main_v0 (F := Ideal) x0) x1 x3 x2 := by
  funext i
  obtain ⟨e, r, d, rfl⟩ : ∃ (e : Fin 8) (r : Fin 4096) (d : Fin 1024), i = ix3 e r d := ⟨i 0, i 1, i 2, eq_ix3 i⟩
  rw [val_main_v5_apply, ffn_apply]
  unfold outAt
  refine Finset.sum_congr rfl fun k _ => ?_
  rw [lidx5, ridx5, hidden_eq]

end Cert.RefSide

end
-- ==== Proof.Pieces.lean ====
/-
  What the body leaves in the output's staging buffer, in each of its two control cases.

  When the reduction axis starts (case A) the body zeroes the block, reads it back and stores the zero block plus the
  point's contribution; at every other point (case B) it stores the running block plus the point's contribution. Both
  are the one stored payload, applied to the input blocks and to the block it read back.
-/
import proofs.«131598_j43654047597179_2_alg».proof.Proof.Gen.KernelIdeal.Frame
import Idealize.ShloMosaic.Lib.Pipeline.Value
import Idealize.ShloMosaic.Lib.Tactic

noncomputable section

namespace Cert.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0, 0] : Fin 3 → Nat) = fun _ => 0 := funext fun a => by fin_cases a <;> rfl

/-- Case B: the running block `xo` plus the point's contribution. -/
theorem out_B (c : Dev nD) (i : grid0.Coords) (a3 : Memref sig .tc .vmem S1x1024x1024 .f32) (h3 : a3.IsWhole)
    (a4 : Memref sig .tc .vmem S1x1024x512 .f32) (h4 : a4.IsWhole) (a5 : Memref sig .tc .vmem S1x1024x512 .f32) (h5 : a5.IsWhole)
    (a6 : Memref sig .tc .vmem S1x512x1024 .f32) (h6 : a6.IsWhole) (a7 : Memref sig .tc .vmem S1x1024x1024 .f32) (h7 : a7.IsWhole)
    (hc : ¬cond0_0 i) (x0 : Vec F S1x1024x1024 .f32) (x1 x2 : Vec F S1x1024x512 .f32) (x3 : Vec F S1x512x1024 .f32)
    (xo : Vec F S1x1024x1024 .f32) :
    out0_B_4 c i a3 h3 a4 h4 a5 h5 a6 h6 a7 h7 hc x0 x1 x2 x3 xo = k0_pay2 x0 x1 x2 x3 xo := by
  unfold out0_B_4
  rw [View.read_writes_eq_canon _ _ _ (cover0_B_4 c i a3 h3 a4 h4 a5 h5 a6 h6 a7 h7 hc x0 x1 x2 x3 xo)]
  unfold kernelRun0_B
  dsimp only
  rw [View.canon_unit_zero hz]
  simp only [View.readAt_eq_ld, h3.read_unread, h4.read_unread, h5.read_unread, h6.read_unread, h7.read_unread,
    View.ld_unit_zero (S := S1x1024x1024) hz, View.ld_unit_zero (S := S1x1024x512) hz, View.ld_unit_zero (S := S1x512x1024) hz]

/-- Case A: the zero block plus the point's contribution. -/
theorem out_A (c : Dev nD) (i : grid0.Coords) (a3 : Memref sig .tc .vmem S1x1024x1024 .f32) (h3 : a3.IsWhole)
    (a4 : Memref sig .tc .vmem S1x1024x512 .f32) (h4 : a4.IsWhole) (a5 : Memref sig .tc .vmem S1x1024x512 .f32) (h5 : a5.IsWhole)
    (a6 : Memref sig .tc .vmem S1x512x1024 .f32) (h6 : a6.IsWhole) (a7 : Memref sig .tc .vmem S1x1024x1024 .f32) (h7 : a7.IsWhole)
    (hc : cond0_0 i) (x0 : Vec F S1x1024x1024 .f32) (x1 x2 : Vec F S1x1024x512 .f32) (x3 : Vec F S1x512x1024 .f32) :
    out0_A_4 c i a3 h3 a4 h4 a5 h5 a6 h6 a7 h7 hc x0 x1 x2 x3 = k0_pay2 x0 x1 x2 x3 (k0_pay1 (F := F)) := by
  unfold out0_A_4
  rw [View.read_writes_eq_canon _ _ _ (cover0_A_4 c i a3 h3 a4 h4 a5 h5 a6 h6 a7 h7 hc x0 x1 x2 x3)]
  unfold kernelRun0_A
  dsimp only
  sl_unfold_words
  rw [View.canon_cons_unit_zero (S := S1x1024x1024) hz, View.readCov_unit_zero (S := S1x1024x1024) _ hz]
  simp only [View.readAt_eq_ld, h3.read_unread, h4.read_unread, h5.read_unread, h6.read_unread,
    View.ld_unit_zero (S := S1x1024x1024) hz, View.ld_unit_zero (S := S1x1024x512) hz, View.ld_unit_zero (S := S1x512x1024) hz]

end Cert.Pieces

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«131598_j43654047597179_2_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.Payload.lean ====
/-
  What one grid point adds to its output block, read at an entry.

  At a grid point the body holds a [1, 1024, 1024] block `A` of tokens, [1, 1024, 512] blocks `B1`, `B3` of the gate and
  up weights, a [1, 512, 1024] block `B2` of the down weights and the running output block `acc`. At the exact values
  rounding to a narrower format is the identity and a product into a zero accumulator is the plain contraction sum, so
  the block it stores is, at `(0, p, q)`,
  `acc (0, p, q) + ∑ l < 512, swish (∑ k, A (0, p, k) * B1 (0, k, l)) (∑ k, A (0, p, k) * B3 (0, k, l)) * B2 (0, l, q)`.
  The block stored when the reduction axis starts is zero everywhere.
-/
import proofs.«131598_j43654047597179_2_alg».proof.Proof.Gen.KernelIdeal.Skeleton
import proofs.«131598_j43654047597179_2_alg».proof.Proof.Spec
import proofs.«131598_j43654047597179_2_alg».proof.Proof.LibBlockMatmul
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen Cert.Swiglu

/-! ## The two dimension records' coordinates -/

section Records

theorem up_l0 (j : S1024x512.Idx) (k : dot_S1024x1024_S1024x512_S1024x512_1_0_0_1_n_n.contr.Idx) :
    (dot_S1024x1024_S1024x512_S1024x512_1_0_0_1_n_n.lhsIdx j k 0).val = (j 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem up_l1 (j : S1024x512.Idx) (k : dot_S1024x1024_S1024x512_S1024x512_1_0_0_1_n_n.contr.Idx) :
    (dot_S1024x1024_S1024x512_S1024x512_1_0_0_1_n_n.lhsIdx j k 1).val = (k ⟨0, by decide⟩).val :=
  dot_S1024x1024_S1024x512_S1024x512_1_0_0_1_n_n.lhsIdx_val_of_single rfl j k
theorem up_r0 (j : S1024x512.Idx) (k : dot_S1024x1024_S1024x512_S1024x512_1_0_0_1_n_n.contr.Idx) :
    (dot_S1024x1024_S1024x512_S1024x512_1_0_0_1_n_n.rhsIdx j k 0).val = (k ⟨0, by decide⟩).val :=
  dot_S1024x1024_S1024x512_S1024x512_1_0_0_1_n_n.rhsIdx_val_of_single rfl j k
theorem up_r1 (j : S1024x512.Idx) (k : dot_S1024x1024_S1024x512_S1024x512_1_0_0_1_n_n.contr.Idx) :
    (dot_S1024x1024_S1024x512_S1024x512_1_0_0_1_n_n.rhsIdx j k 1).val = (j 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

theorem dn_l0 (j : S1024x1024.Idx) (k : dot_S1024x512_S512x1024_S1024x1024_1_0_0_1_n_n.contr.Idx) :
    (dot_S1024x512_S512x1024_S1024x1024_1_0_0_1_n_n.lhsIdx j k 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem dn_l1 (j : S1024x1024.Idx) (k : dot_S1024x512_S512x1024_S1024x1024_1_0_0_1_n_n.contr.Idx) :
    (dot_S1024x512_S512x1024_S1024x1024_1_0_0_1_n_n.lhsIdx j k 1).val = (k ⟨0, by decide⟩).val :=
  dot_S1024x512_S512x1024_S1024x1024_1_0_0_1_n_n.lhsIdx_val_of_single rfl j k
theorem dn_r0 (j : S1024x1024.Idx) (k : dot_S1024x512_S512x1024_S1024x1024_1_0_0_1_n_n.contr.Idx) :
    (dot_S1024x512_S512x1024_S1024x1024_1_0_0_1_n_n.rhsIdx j k 0).val = (k ⟨0, by decide⟩).val :=
  dot_S1024x512_S512x1024_S1024x1024_1_0_0_1_n_n.rhsIdx_val_of_single rfl j k
theorem dn_r1 (j : S1024x1024.Idx) (k : dot_S1024x512_S512x1024_S1024x1024_1_0_0_1_n_n.contr.Idx) :
    (dot_S1024x512_S512x1024_S1024x1024_1_0_0_1_n_n.rhsIdx j k 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

end Records

/-! ## The products at an entry -/

/-- A [1024, 1024] by [1024, 512] product into zero at `(p, l)`. -/
theorem up_apply {φ₁ φ₂ : FTy} (a : FVec Ideal S1024x1024 φ₁) (b : FVec Ideal S1024x512 φ₂) (p : Fin 1024) (l : Fin 512) :
    matmul dot_S1024x1024_S1024x512_S1024x512_1_0_0_1_n_n none a b (constant (F := Ideal) S1024x512 .f32 0x00000000#32) (ix2 p l)
      = ∑ k : Fin 1024, (a (ix2 p k) : EReal) * (b (ix2 k l) : EReal) :=
  Cert.BlockMatmul.matmul_zero_fin (M := 1024) (K := 1024) (N := 512) dot_S1024x1024_S1024x512_S1024x512_1_0_0_1_n_n rfl rfl
    up_l0 up_l1 up_r0 up_r1 none a b (ix2 p l)

/-- A [1024, 512] by [512, 1024] product into zero at `(p, q)`. -/
theorem dn_apply {φ₁ φ₂ : FTy} (a : FVec Ideal S1024x512 φ₁) (b : FVec Ideal S512x1024 φ₂) (p : Fin 1024) (q : Fin 1024) :
    matmul dot_S1024x512_S512x1024_S1024x1024_1_0_0_1_n_n none a b (constant (F := Ideal) S1024x1024 .f32 0x00000000#32) (ix2 p q)
      = ∑ l : Fin 512, (a (ix2 p l) : EReal) * (b (ix2 l q) : EReal) :=
  Cert.BlockMatmul.matmul_zero_fin (M := 1024) (K := 512) (N := 1024) dot_S1024x512_S512x1024_S1024x1024_1_0_0_1_n_n rfl rfl
    dn_l0 dn_l1 dn_r0 dn_r1 none a b (ix2 p q)

/-! ## The two stored blocks at an entry -/

/-- The block stored when the reduction axis starts is zero. -/
theorem pay1_apply (y : S1x1024x1024.Idx) : k0_pay1 (F := Ideal) y = (0 : EReal) := by
  unfold k0_pay1
  show Ideal.ofBits .f32 0x00000000#32 = 0
  exact Ideal.ofBits_zero_f32

/-- One point's contribution to the output block at `(p, q)`. -/
def partialAt (A : S1x1024x1024.Idx → EReal) (B1 B3 : S1x1024x512.Idx → EReal) (B2 : S1x512x1024.Idx → EReal)
    (p q : Fin 1024) : EReal :=
  ∑ l : Fin 512, swish (∑ k : Fin 1024, A (ix3 (0 : Fin 1) p k) * B1 (ix3 (0 : Fin 1) k l))
    (∑ k : Fin 1024, A (ix3 (0 : Fin 1) p k) * B3 (ix3 (0 : Fin 1) k l)) * B2 (ix3 (0 : Fin 1) l q)

/-- The block the body stores: the running block plus the point's contribution. -/
theorem pay2_apply (A : Vec Ideal S1x1024x1024 .f32) (B1 B3 : Vec Ideal S1x1024x512 .f32) (B2 : Vec Ideal S1x512x1024 .f32)
    (acc : Vec Ideal S1x1024x1024 .f32) (p q : Fin 1024) :
    k0_pay2 (F := Ideal) A B1 B3 B2 acc (ix3 (0 : Fin 1) p q) = acc (ix3 (0 : Fin 1) p q) + partialAt A B1 B3 B2 p q := by
  unfold k0_pay2
  refine (shapeCast_ab_1ab_apply _ _ (0 : Fin 1) p q).trans ?_
  refine congrArg₂ (· + ·) (shapeCast_1ab_ab_apply acc _ p q) ?_
  refine (dn_apply _ _ p q).trans ?_
  unfold partialAt
  refine Finset.sum_congr rfl fun l _ => ?_
  refine congrArg₂ (· * ·) ?_ (shapeCast_1ab_ab_apply B2 _ l q)
  have eg := (up_apply (truncf .bf16 (shapeCast S1024x1024 A shapeCasts_S1x1024x1024_S1024x1024) bitsLt_bf16_f32)
      (truncf .bf16 (shapeCast S1024x512 B1 shapeCasts_S1x1024x512_S1024x512) bitsLt_bf16_f32) p l).trans
    (Finset.sum_congr rfl fun k _ => congrArg₂ (· * ·) (shapeCast_1ab_ab_apply A _ p k) (shapeCast_1ab_ab_apply B1 _ k l))
  have eu := (up_apply (truncf .bf16 (shapeCast S1024x1024 A shapeCasts_S1x1024x1024_S1024x1024) bitsLt_bf16_f32)
      (truncf .bf16 (shapeCast S1024x512 B3 shapeCasts_S1x1024x512_S1024x512) bitsLt_bf16_f32) p l).trans
    (Finset.sum_congr rfl fun k _ => congrArg₂ (· * ·) (shapeCast_1ab_ab_apply A _ p k) (shapeCast_1ab_ab_apply B3 _ k l))
  unfold swish
  rw [← eg, ← eu]
  rfl

end Cert.Payload

end
-- ==== Proof.Blocks.lean ====
/-
  The input blocks of a grid point, read at an entry, and where the point's blocks sit in their arrays.

  The grid is 8 experts by 4 token tiles by 8 hidden tiles, the hidden tile moving fastest: point `t` is expert
  `t / 32`, token tile `t / 8 % 4`, hidden tile `t % 8`. The token block is rows `1024 * (t / 8 % 4) + p` of expert
  `t / 32`; the gate and up blocks are columns `512 * (t % 8) + l` of that expert's weights; the down block is rows
  `512 * (t % 8) + l`; the output block sits where the token block does.
-/
import proofs.«131598_j43654047597179_2_alg».proof.Proof.Gen.KernelIdeal.Frame
import Idealize.ShloMosaic.Lib.Pipeline.Value
import Idealize.ShloMosaic.Lib.ValueIdx

noncomputable section

namespace Cert.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps, decided over the grid. -/
theorem idx_facts : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = t.val % 8 ∧ win0_3.index t (2 : Fin 3) = 0
    ∧ win0_4.index t (0 : Fin 3) = t.val / 32 ∧ win0_4.index t (1 : Fin 3) = t.val / 8 % 4 ∧ win0_4.index t (2 : Fin 3) = 0 :=
  (by decide +kernel : ∀ t : Fin grid0.N, _)

/-- The token block at `(0, p, k)` is the grouped tokens at `(t / 32, 1024 * (t / 8 % 4) + p, k)`. -/
theorem tok_apply (c : Dev nD) (t : Fin cfg0.N) (p k : Fin 1024) (i : S8x4096x1024.Idx)
    (h0 : (i 0).val = t.val / 32) (h1 : (i 1).val = t.val / 8 % 4 * 1024 + p.val) (h2 : (i 2).val = k.val) :
    (iblk m c 0 t : Vec F S1x1024x1024 .f32) (ix3 (0 : Fin 1) p k) = V m c main_v0 i := by
  obtain ⟨e0, e1, e2, -⟩ := idx_facts t
  unfold iblk
  rw [View.read_apply]
  show V m c main_v0 (((cfg0.win 0).blk t).view.emb (ix3 (0 : Fin 1) p k)) = V m c main_v0 i
  refine congrArg _ ?_
  funext a; apply Fin.ext
  match a with
  | ⟨0, _⟩ => show win0_0.index t (0 : Fin 3) * 1 + 1 * 0 = (i 0).val; omega
  | ⟨1, _⟩ => show win0_0.index t (1 : Fin 3) * 1024 + 1 * p.val = (i 1).val; omega
  | ⟨2, _⟩ => show win0_0.index t (2 : Fin 3) * 1024 + 1 * k.val = (i 2).val; omega

/-- The gate block at `(0, k, l)` is the gate weights at `(t / 32, k, 512 * (t % 8) + l)`. -/
theorem gate_apply (c : Dev nD) (t : Fin cfg0.N) (k : Fin 1024) (l : Fin 512) (i : S8x1024x4096.Idx)
    (h0 : (i 0).val = t.val / 32) (h1 : (i 1).val = k.val) (h2 : (i 2).val = t.val % 8 * 512 + l.val) :
    (iblk m c 1 t : Vec F S1x1024x512 .f32) (ix3 (0 : Fin 1) k l) = V m c main_arg1 i := by
  obtain ⟨-, -, -, e0, e1, e2, -⟩ := idx_facts t
  unfold iblk
  rw [View.read_apply]
  show V m c main_arg1 (((cfg0.win 1).blk t).view.emb (ix3 (0 : Fin 1) k l)) = V m c main_arg1 i
  refine congrArg _ ?_
  funext a; apply Fin.ext
  match a with
  | ⟨0, _⟩ => show win0_1.index t (0 : Fin 3) * 1 + 1 * 0 = (i 0).val; omega
  | ⟨1, _⟩ => show win0_1.index t (1 : Fin 3) * 1024 + 1 * k.val = (i 1).val; omega
  | ⟨2, _⟩ => show win0_1.index t (2 : Fin 3) * 512 + 1 * l.val = (i 2).val; omega

/-- The up block at `(0, k, l)` is the up weights at `(t / 32, k, 512 * (t % 8) + l)`. -/
theorem up_apply (c : Dev nD) (t : Fin cfg0.N) (k : Fin 1024) (l : Fin 512) (i : S8x1024x4096.Idx)
    (h0 : (i 0).val = t.val / 32) (h1 : (i 1).val = k.val) (h2 : (i 2).val = t.val % 8 * 512 + l.val) :
    (iblk m c 2 t : Vec F S1x1024x512 .f32) (ix3 (0 : Fin 1) k l) = V m c main_arg3 i := by
  obtain ⟨-, -, -, -, -, -, e0, e1, e2, -⟩ := idx_facts t
  unfold iblk
  rw [View.read_apply]
  show V m c main_arg3 (((cfg0.win 2).blk t).view.emb (ix3 (0 : Fin 1) k l)) = V m c main_arg3 i
  refine congrArg _ ?_
  funext a; apply Fin.ext
  match a with
  | ⟨0, _⟩ => show win0_2.index t (0 : Fin 3) * 1 + 1 * 0 = (i 0).val; omega
  | ⟨1, _⟩ => show win0_2.index t (1 : Fin 3) * 1024 + 1 * k.val = (i 1).val; omega
  | ⟨2, _⟩ => show win0_2.index t (2 : Fin 3) * 512 + 1 * l.val = (i 2).val; omega

/-- The down block at `(0, l, q)` is the down weights at `(t / 32, 512 * (t % 8) + l, q)`. -/
theorem down_apply (c : Dev nD) (t : Fin cfg0.N) (l : Fin 512) (q : Fin 1024) (i : S8x4096x1024.Idx)
    (h0 : (i 0).val = t.val / 32) (h1 : (i 1).val = t.val % 8 * 512 + l.val) (h2 : (i 2).val = q.val) :
    (iblk m c 3 t : Vec F S1x512x1024 .f32) (ix3 (0 : Fin 1) l q) = V m c main_arg2 i := by
  obtain ⟨-, -, -, -, -, -, -, -, -, e0, e1, e2, -⟩ := idx_facts t
  unfold iblk
  rw [View.read_apply]
  show V m c main_arg2 (((cfg0.win 3).blk t).view.emb (ix3 (0 : Fin 1) l q)) = V m c main_arg2 i
  refine congrArg _ ?_
  funext a; apply Fin.ext
  match a with
  | ⟨0, _⟩ => show win0_3.index t (0 : Fin 3) * 1 + 1 * 0 = (i 0).val; omega
  | ⟨1, _⟩ => show win0_3.index t (1 : Fin 3) * 512 + 1 * l.val = (i 1).val; omega
  | ⟨2, _⟩ => show win0_3.index t (2 : Fin 3) * 1024 + 1 * q.val = (i 2).val; omega

end Cert.Blocks

end
-- ==== Proof.LibTileSum.lean ====
/-
  An accumulator carried over a run of consecutive grid points.

  A point-indexed quantity that starts from `z` plus the point's term at the first point of each run of `J` points and
  adds the point's term to its previous value at every other point holds, at offset `j` in a run, `z` plus the terms
  of the run's first `j + 1` points. Only associativity of `+` is used.
-/
import Mathlib.Algebra.BigOperators.Intervals

namespace Cert.TileSum

open Finset

variable {M : Type*} [AddCommMonoid M] {ι : Type*} {N : ℕ}

/-- GENERAL LEMMA. At offset `j` of the run starting at `J * q` the accumulator holds `z` plus the run's first `j + 1` terms. -/
theorem run_at (J : ℕ) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (q : ℕ) (i : ι) : ∀ (j : ℕ), j < J → ∀ (h : J * q + j < N), acc (J * q + j) h i = z + ∑ s ∈ range (j + 1), term (J * q + s) i
  | 0, _, h => by
    rw [h_first _ h (by rw [Nat.add_zero, Nat.mul_mod_right]) i, sum_range_one]
  | j + 1, hj, h => by
    have hne : ¬ (J * q + j + 1) % J = 0 := by
      rw [Nat.add_assoc, Nat.mul_add_mod, Nat.mod_eq_of_lt hj]; exact Nat.succ_ne_zero j
    have hs := h_next (J * q + j) h hne i
    refine hs.trans ?_
    rw [run_at J z acc term h_first h_next q i j (Nat.lt_of_succ_lt hj) (Nat.lt_of_succ_lt h),
      sum_range_succ _ (j + 1), add_assoc]
    rfl

/-- GENERAL LEMMA. At the last point of its run the accumulator holds `z` plus the whole run's terms. -/
theorem run_last (J : ℕ) (hJ : 0 < J) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (t : ℕ) (ht : t < N) (hlast : t % J = J - 1) (i : ι) :
    acc t ht i = z + ∑ s ∈ range J, term (J * (t / J) + s) i := by
  have same : ∀ (u : ℕ) (hu : u < N), u = t → acc u hu i = acc t ht i := fun u hu e => by subst e; rfl
  have h' : J * (t / J) + t % J < N := by rw [Nat.div_add_mod]; exact ht
  rw [← same _ h' (Nat.div_add_mod t J), run_at J z acc term h_first h_next (t / J) i (t % J) (Nat.mod_lt t hJ) h', hlast,
    Nat.sub_add_cancel hJ]

end Cert.TileSum
-- ==== Proof.Accum.lean ====
/-
  The output block a grid point holds when it is written back.

  Over the 8 points of one run of the reduction axis (one expert, one token tile, hidden tiles 0 to 7) the staging
  buffer starts from the zero block plus the first point's contribution and gains one contribution per later point.
  At the run's last point it therefore holds the sum of the 8 contributions; contribution `s` at `(p, q)` is the sum
  over the hidden coordinates `512 * s + l`, `l < 512`, of the down projection's terms, so the whole is the layer's
  output at `(t / 32, 1024 * (t / 8 % 4) + p, q)`. Only associativity and commutativity of `+` are used.
-/
import proofs.«131598_j43654047597179_2_alg».proof.Proof.Gen.KernelIdeal.Frame
import proofs.«131598_j43654047597179_2_alg».proof.Proof.Pieces
import proofs.«131598_j43654047597179_2_alg».proof.Proof.Payload
import proofs.«131598_j43654047597179_2_alg».proof.Proof.Blocks
import proofs.«131598_j43654047597179_2_alg».proof.Proof.Spec
import proofs.«131598_j43654047597179_2_alg».proof.Proof.LibTileSum

noncomputable section

namespace Cert.Accum

open Idealize.ShloMosaic Idealize.ShloMosaic.TcCoe Idealize.SL.Sem Idealize.ShloMosaic.ValueIdx
open Cert.KernelIdeal Cert.KernelIdeal.Gen Cert.Swiglu Cert.Payload

variable (m : (ℓ : Loc nD τ sig) → Buf (Elt Ideal) ℓ)

/-- Point `n`'s contribution to entry `(p, q)` of its output block (zero past the grid). -/
def term (c : Dev nD) (n : ℕ) (pq : Fin 1024 × Fin 1024) : EReal :=
  if h : n < cfg0.N then
    partialAt (iblk m c 0 ⟨n, h⟩ : Vec Ideal S1x1024x1024 .f32) (iblk m c 1 ⟨n, h⟩ : Vec Ideal S1x1024x512 .f32)
      (iblk m c 2 ⟨n, h⟩ : Vec Ideal S1x1024x512 .f32) (iblk m c 3 ⟨n, h⟩ : Vec Ideal S1x512x1024 .f32) pq.1 pq.2
  else 0

/-- Entry `(p, q)` of what the staging buffer holds after point `n`. -/
def acc (c : Dev nD) (n : ℕ) (h : n < cfg0.N) (pq : Fin 1024 × Fin 1024) : EReal :=
  outsAt0 (F := Ideal) m c n h (ix3 (0 : Fin 1) pq.1 pq.2)

theorem acc_first (c : Dev nD) (n : ℕ) (h : n < cfg0.N) (h0 : n % 8 = 0) (pq : Fin 1024 × Fin 1024) :
    acc m c n h pq = 0 + term m c n pq := by
  unfold acc term
  rw [dif_pos h, outsAt0_A m c ⟨n, h⟩ h0, Cert.Pieces.out_A]
  refine (pay2_apply _ _ _ _ _ pq.1 pq.2).trans ?_
  rw [pay1_apply]

theorem acc_next (c : Dev nD) (n : ℕ) (h : n + 1 < cfg0.N) (hne : ¬(n + 1) % 8 = 0) (pq : Fin 1024 × Fin 1024) :
    acc m c (n + 1) h pq = acc m c n (Nat.lt_of_succ_lt h) pq + term m c (n + 1) pq := by
  unfold acc term
  rw [dif_pos h, outsAt0_B m c ⟨n + 1, h⟩ hne, Cert.Pieces.out_B]
  refine (pay2_apply _ _ _ _ _ pq.1 pq.2).trans ?_
  rfl

/-- At the last point of a run the buffer holds the sum of the run's 8 contributions. -/
theorem acc_last (c : Dev nD) (t : ℕ) (ht : t < cfg0.N) (hl : t % 8 = 7) (pq : Fin 1024 × Fin 1024) :
    acc m c t ht pq = 0 + ∑ s ∈ Finset.range 8, term m c (8 * (t / 8) + s) pq :=
  Cert.TileSum.run_last 8 (by decide) 0 (acc m c) (term m c) (acc_first m c) (acc_next m c) t ht hl pq

/-- A point's contribution, in the arrays' own coordinates: hidden coordinates `512 * s + l` of the down projection. -/
theorem term_eq (c : Dev nD) (n : ℕ) (h : n < cfg0.N) (p q : Fin 1024) (e : Fin 8) (r : Fin 4096) (s : ℕ)
    (he : e.val = n / 32) (hr : r.val = n / 8 % 4 * 1024 + p.val) (hs : n % 8 = s) :
    term m c n (p, q)
      = ∑ l ∈ Finset.range 512, downTerm (V m c main_v0) (V m c main_arg1) (V m c main_arg3) (V m c main_arg2) e r q (s * 512 + l) := by
  have hs8 : s < 8 := by omega
  unfold term
  rw [dif_pos h, ← Fin.sum_univ_eq_sum_range (fun l => downTerm (V m c main_v0) (V m c main_arg1) (V m c main_arg3) (V m c main_arg2) e r q (s * 512 + l)) 512]
  unfold partialAt
  refine Finset.sum_congr rfl fun l _ => ?_
  have hl : s * 512 + l.val < 4096 := by have := l.isLt; omega
  unfold downTerm
  rw [dif_pos hl]
  unfold hiddenAt proj
  refine congrArg₂ (· * ·) (congrArg₂ swish ?_ ?_) ?_
  · refine Finset.sum_congr rfl fun k _ => congrArg₂ (· * ·) ?_ ?_
    · exact Cert.Blocks.tok_apply m c ⟨n, h⟩ p k (ix3 e r k) he hr rfl
    · exact Cert.Blocks.gate_apply m c ⟨n, h⟩ k l (ix3 e k ⟨s * 512 + l.val, hl⟩) he rfl (by show s * 512 + l.val = n % 8 * 512 + l.val; rw [hs])
  · refine Finset.sum_congr rfl fun k _ => congrArg₂ (· * ·) ?_ ?_
    · exact Cert.Blocks.tok_apply m c ⟨n, h⟩ p k (ix3 e r k) he hr rfl
    · exact Cert.Blocks.up_apply m c ⟨n, h⟩ k l (ix3 e k ⟨s * 512 + l.val, hl⟩) he rfl (by show s * 512 + l.val = n % 8 * 512 + l.val; rw [hs])
  · exact Cert.Blocks.down_apply m c ⟨n, h⟩ l q (ix3 e ⟨s * 512 + l.val, hl⟩ q) he (by show s * 512 + l.val = n % 8 * 512 + l.val; rw [hs]) rfl

/-- What a writing-back point holds at `(0, p, q)`: the layer's output at that point's expert and row. -/
theorem out_flush (c : Dev nD) (t : Fin cfg0.N) (hl : t.val % 8 = 7) (p q : Fin 1024) (e : Fin 8) (r : Fin 4096)
    (he : e.val = t.val / 32) (hr : r.val = t.val / 8 % 4 * 1024 + p.val) :
    outsAt0 (F := Ideal) m c t.val t.isLt (ix3 (0 : Fin 1) p q)
      = outAt (V m c main_v0) (V m c main_arg1) (V m c main_arg3) (V m c main_arg2) e r q := by
  have hN : cfg0.N = 256 := N_0
  have ht : t.val < 256 := hN ▸ t.isLt
  rw [outAt_blocks]
  refine (acc_last m c t.val t.isLt hl (p, q)).trans ?_
  rw [zero_add]
  refine Finset.sum_congr rfl fun s hs => ?_
  have hs' : s < 8 := Finset.mem_range.mp hs
  exact term_eq m c (8 * (t.val / 8) + s) (lt_of_lt_of_eq (show 8 * (t.val / 8) + s < 256 by omega) hN.symm) p q e r s (by omega) (by omega) (by omega)

end Cert.Accum

end
-- ==== Proof.Final.lean ====
/-
  The kernel's result array.

  Each output block is written back once, after the last point of its run, where it holds the layer's output for its
  expert and token tile; the 32 written blocks tile the [8, 4096, 1024] array (entry `(e, r, d)` lies in the block
  written at point `32 * e + 8 * (r / 1024) + 7`). So the array the region leaves is the layer of the arrays the region
  found: the grouped tokens are the tokens reshaped, the weights are the arguments. The operation after the region
  reshapes that array to [32768, 1024].
-/
import proofs.«131598_j43654047597179_2_alg».proof.Proof.Gen.KernelIdeal.Frame
import proofs.«131598_j43654047597179_2_alg».proof.Proof.Accum
import proofs.«131598_j43654047597179_2_alg».proof.Proof.Blocks
import proofs.«131598_j43654047597179_2_alg».proof.Proof.Spec
import Idealize.ShloMosaic.Lib.Pipeline.Value
import Idealize.ShloMosaic.Lib.StableHlo.Run
import Idealize.ShloMosaic.Lib.Tactic

noncomputable section

namespace Cert.Final

open Idealize.ShloMosaic Idealize.ShloMosaic.TcCoe Idealize.SL.Sem Idealize.ShloMosaic.ValueIdx
open Idealize.ShloMosaic.Pipeline (Dat)
open Cert.KernelIdeal Cert.KernelIdeal.Gen Cert.Swiglu

variable (m : (ℓ : Loc nD τ sig) → Buf (Elt Ideal) ℓ) (ρ : Dev nD → PrngReg)

/-- The layer of the arrays as the region finds them. -/
abbrev layer (c : Dev nD) : S8x4096x1024.Idx → EReal :=
  ffn (V m c main_v0) (V m c main_arg1) (V m c main_arg3) (V m c main_arg2)

/-- Entry `(0, p, q)` of the block written back at point `t` is the layer at that block's place in the array. -/
theorem flushed_at (c : Dev nD) (t : Fin cfg0.N) (hl : t.val % 8 = 7) (p q : Fin 1024) :
    outsAt0 (F := Ideal) m c t.val t.isLt (ix3 (0 : Fin 1) p q)
      = layer m c (((cfg0.win 4).blk t).view.emb (ix3 (0 : Fin 1) p q)) := by
  obtain ⟨-, -, -, -, -, -, -, -, -, -, -, -, e0, e1, e2⟩ := Cert.Blocks.idx_facts t
  have hN : cfg0.N = 256 := N_0
  have ht : t.val < 256 := hN ▸ t.isLt
  have hp := p.isLt
  have hemb : ((cfg0.win 4).blk t).view.emb (ix3 (0 : Fin 1) p q)
      = (ix3 (⟨t.val / 32, by omega⟩ : Fin 8) (⟨t.val / 8 % 4 * 1024 + p.val, by omega⟩ : Fin 4096) q : S8x4096x1024.Idx) := by
    funext a; apply Fin.ext
    match a with
    | ⟨0, _⟩ => show win0_4.index t (0 : Fin 3) * 1 + 1 * 0 = t.val / 32; omega
    | ⟨1, _⟩ => show win0_4.index t (1 : Fin 3) * 1024 + 1 * p.val = t.val / 8 % 4 * 1024 + p.val; omega
    | ⟨2, _⟩ => show win0_4.index t (2 : Fin 3) * 1024 + 1 * q.val = q.val; omega
  rw [hemb]
  exact Cert.Accum.out_flush m c t hl p q _ _ rfl rfl

/-- What a writing-back point writes is its block of the layer. -/
theorem flushed_eq (c : Dev nD) (t : Fin cfg0.N) (hf : (cfg0.win 4).flush t = true) :
    (dats m 0 c).flushed 4 t = ((cfg0.win 4).blk t).view.read (Elt Ideal) (layer m c) := by
  have hl : t.val % 8 = 7 := (flush0_4 t).mp hf
  show (cfg0.win 4).cut (grid0.coords t) ((dats m 0 c).after 4 t) = _
  rw [after0_4]
  funext y
  rw [View.read_apply]
  have hy : y = (ix3 (0 : Fin 1) (y 1) (y 2) : S1x1024x1024.Idx) := by
    funext a
    match a with
    | ⟨0, _⟩ => exact Fin.ext (by show (y 0).val = 0; have h : (y 0).val < 1 := (y 0).isLt; omega)
    | ⟨1, _⟩ => rfl
    | ⟨2, _⟩ => rfl
  rw [hy]
  exact flushed_at m c t hl (y 1) (y 2)

/-- An entry of the array lies in point `t`'s output block iff each coordinate lies in the block's range on its axis. -/
theorem mem_blk (t : Fin cfg0.N) (i : S8x4096x1024.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v1).slice (win0_4.rect t)).set ↔ _
  rw [View.set_slice_whole, Rect.mem_set_unit]
  exact Iff.rfl

/-- The array the region leaves is the layer. -/
theorem final (c : Dev nD) : (dats m 0 c).arrAt 4 cfg0.N = layer m c :=
  (dats m 0 c).arrAt_eq_of_cover 4 (layer m c) (flushed_eq m c) fun i => by
    have h0 : (i 0).val < 8 := (i 0).isLt
    have h1 : (i 1).val < 4096 := (i 1).isLt
    have h2 : (i 2).val < 1024 := (i 2).isLt
    have hN : cfg0.N = 256 := N_0
    have hlt : 32 * (i 0).val + 8 * ((i 1).val / 1024) + 7 < cfg0.N := lt_of_lt_of_eq (by omega) hN.symm
    obtain ⟨-, -, -, -, -, -, -, -, -, -, -, -, e0, e1, e2⟩ :=
      Cert.Blocks.idx_facts ⟨32 * (i 0).val + 8 * ((i 1).val / 1024) + 7, hlt⟩
    refine ⟨⟨32 * (i 0).val + 8 * ((i 1).val / 1024) + 7, hlt⟩, (flush0_4 _).mpr (by show (32 * (i 0).val + 8 * ((i 1).val / 1024) + 7) % 8 = 7; omega), ?_⟩
    rw [mem_blk]
    intro a
    match a with
    | ⟨0, _⟩ =>
      show win0_4.index _ (0 : Fin 3) * 1 ≤ (i 0).val ∧ (i 0).val < win0_4.index _ (0 : Fin 3) * 1 + 1
      rw [e0]; dsimp only; omega
    | ⟨1, _⟩ =>
      show win0_4.index _ (1 : Fin 3) * 1024 ≤ (i 1).val ∧ (i 1).val < win0_4.index _ (1 : Fin 3) * 1024 + 1024
      rw [e1]; dsimp only; omega
    | ⟨2, _⟩ =>
      show win0_4.index _ (2 : Fin 3) * 1024 ≤ (i 2).val ∧ (i 2).val < win0_4.index _ (2 : Fin 3) * 1024 + 1024
      rw [e2]; omega

/-- The grouped tokens the region finds are the tokens reshaped. -/
theorem tokens_eq (c : Dev nD) :
    (V m c main_v0 : S8x4096x1024.Idx → EReal)
      = shapeCast S8x4096x1024 (m ((c : Thread nD τ).loc main_arg0)) shapeCasts_S32768x1024_S8x4096x1024 := by
  show StableHlo.after hostOps0 (fun b => m (c, b)) (Proc.devRef .tc main_v0) = _
  after_results
  rfl

/-- The layer of the argument arrays. -/
abbrev result (c : Dev nD) : S32768x1024.Idx → EReal :=
  shapeCast S32768x1024
    (ffn (shapeCast S8x4096x1024 (m ((c : Thread nD τ).loc main_arg0)) shapeCasts_S32768x1024_S8x4096x1024)
      (m ((c : Thread nD τ).loc main_arg1)) (m ((c : Thread nD τ).loc main_arg3)) (m ((c : Thread nD τ).loc main_arg2)))
    shapeCasts_S8x4096x1024_S32768x1024

theorem layer_eq (c : Dev nD) :
    layer m c = ffn (shapeCast S8x4096x1024 (m ((c : Thread nD τ).loc main_arg0)) shapeCasts_S32768x1024_S8x4096x1024)
      (m ((c : Thread nD τ).loc main_arg1)) (m ((c : Thread nD τ).loc main_arg3)) (m ((c : Thread nD τ).loc main_arg2)) := by
  unfold layer
  rw [tokens_eq, V_main_arg1, V_main_arg2, V_main_arg3]

/-- After the operation that follows the region the result buffer holds the layer reshaped. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 4))
      = layer m c := (Pipeline.withArrays_arr spec0 launch0.win.arr_inj c _ _ 4).trans (final m c)
  exact congrArg (fun v => shapeCast S32768x1024 v shapeCasts_S8x4096x1024_S32768x1024) (e.trans (layer_eq m c))

/-- The kernel's run, read: the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.Final

end
-- ==== Proof.lean ====
/-
  A mixture-of-experts gated feed-forward layer with a uniform split: 8 experts, 4096 tokens each, model width 1024,
  hidden width 4096. For expert `e` and token `r` the layer is
  `out (e, r, d) = ∑ h, (g * logistic g * u) * W2 (e, h, d)` with `g = ∑ k, X (e, r, k) * W1 (e, k, h)` and `u` the
  same sum against `W3`.

  The kernel walks a grid of 8 experts by 4 token tiles by 8 hidden tiles. At a point it forms the two products of a
  1024-row token block with 512 columns of the gate and up weights, applies the gate, multiplies by 512 rows of the down
  weights and adds the result into the output block, which it zeroed at hidden tile 0 and writes back after hidden
  tile 7. At the exact values rounding to a narrower format is the identity and a product into zero is the plain
  contraction sum, so the written block is the sum over the 8 hidden tiles of the sums over 512 hidden coordinates:
  the sum over all 4096, taken block by block. The reference takes the three batched products whole, and spells the
  logistic function as `1 / (1 + exp (-g))`, which is its definition. Regrouping a finite sum uses associativity and
  commutativity of `+` on the extended reals only, so the two results agree at every input, finite or not; both end with
  the same reshape to [32768, 1024].

  The three frames are the generated ones (the reference's is its generated run with the result dropped); the ideal
  pass rewrote nothing, so `preserves` is `True`.
-/
import proofs.«131598_j43654047597179_2_alg».proof.Defs
import proofs.«131598_j43654047597179_2_alg».proof.Proof.Gen.Kernel
import proofs.«131598_j43654047597179_2_alg».proof.Proof.Gen.Kernel.Frame
import proofs.«131598_j43654047597179_2_alg».proof.Proof.Gen.KernelIdeal
import proofs.«131598_j43654047597179_2_alg».proof.Proof.Gen.KernelIdeal.Frame
import proofs.«131598_j43654047597179_2_alg».proof.Proof.Gen.ReferenceIdeal
import proofs.«131598_j43654047597179_2_alg».proof.Proof.Gen.ReferenceIdeal.Read
import proofs.«131598_j43654047597179_2_alg».proof.Proof.Gen.Pre_finite_inputs
import proofs.«131598_j43654047597179_2_alg».proof.Proof.RefSide
import proofs.«131598_j43654047597179_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the argument arrays, reshaped to [32768, 1024]. -/
theorem algebraic : Cert.algebraic_KernelIdeal_ReferenceIdeal := by
  intro m ρ m' ρ' _ hagree
  refine ⟨fun c => Cert.Final.result m c, Cert.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.RefSide.v5_eq, (hagree c).1, (hagree c).2.1, (hagree c).2.2.1, (hagree c).2.2.2.1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
